-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8x64x512 : Shape := ⟨3, ![8, 64, 512]⟩
abbrev S512x512 : Shape := ⟨2, ![512, 512]⟩
abbrev S512 : Shape := ⟨1, ![512]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8x256x512 .f32) (main_arg1 : FVec F S8x64x512 .f32) (main_arg2 : FVec F S512x512 .f32) (main_arg3 : FVec F S512 .f32) (main_arg4 : FVec F S512x512 .f32) (main_arg5 : FVec F S512 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x512 .f32 := Host.absf main_arg1
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S8x256x512 : Shape := ⟨3, ![8, 256, 512]⟩
abbrev S8x64x512 : Shape := ⟨3, ![8, 64, 512]⟩
abbrev S512x512 : Shape := ⟨2, ![512, 512]⟩
abbrev S512 : Shape := ⟨1, ![512]⟩
abbrev S8x256x64x512 : Shape := ⟨4, ![8, 256, 64, 512]⟩
abbrev S1x32x512 : Shape := ⟨3, ![1, 32, 512]⟩
abbrev S1x64x512 : Shape := ⟨3, ![1, 64, 512]⟩
abbrev S1x32x64x512 : Shape := ⟨4, ![1, 32, 64, 512]⟩
abbrev S32x512 : Shape := ⟨2, ![32, 512]⟩
abbrev S64x512 : Shape := ⟨2, ![64, 512]⟩
abbrev S32x1x512 : Shape := ⟨3, ![32, 1, 512]⟩
abbrev S32x64x512 : Shape := ⟨3, ![32, 64, 512]⟩
abbrev S2048x512 : Shape := ⟨2, ![2048, 512]⟩
abbrev S1x512 : Shape := ⟨2, ![1, 512]⟩

abbrev nBuf : Space → Nat
  | .hbm => 9
  | .vmem => 10
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512x512, .f32⟩
  | .hbm, ⟨8, _⟩ => ⟨S8x256x64x512, .f32⟩
  | .local _ .vmem, ⟨0, _⟩ => ⟨S1x32x512, .f32⟩
  | .local _ .vmem, ⟨1, _⟩ => ⟨S1x32x512, .f32⟩
  | .local _ .vmem, ⟨2, _⟩ => ⟨S1x64x512, .f32⟩
  | .local _ .vmem, ⟨3, _⟩ => ⟨S1x64x512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S1x32x64x512, .f32⟩
  | .local _ .vmem, ⟨9, _⟩ => ⟨S1x32x64x512, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x32x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S512x512_S512x512_1_0 : S512x512.Transposes [1, 0] S512x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S32x512_S32x1x512 : S32x512.ShapeCasts S32x1x512
  shapeCasts_S64x512_S1x64x512 : S64x512.ShapeCasts S1x64x512
  broadcasts_S32x1x512_S32x64x512 : S32x1x512.Broadcasts S32x64x512
  broadcasts_S1x64x512_S32x64x512 : S1x64x512.Broadcasts S32x64x512
  shapeCasts_S32x64x512_S2048x512 : S32x64x512.ShapeCasts S2048x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  shapeCasts_S2048x512_S32x64x512 : S2048x512.ShapeCasts S32x64x512
  inb_S1x32x64x512_S1x32x64x512_0_0_0_0 : ∀ a, (![0, 0, 0, 0] : Fin 4 → Nat) a + S1x32x64x512.size a ≤ S1x32x64x512.size a
  h_S1x32x64x512 : 0 < S1x32x64x512.numel
  shapeCasts_S1x32x64x512_S32x64x512 : S1x32x64x512.ShapeCasts S32x64x512
  shapeCasts_S32x64x512_S1x32x64x512 : S32x64x512.ShapeCasts S1x32x64x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S8x256x512.size a
  hwx0_0 : ∀ i : grid0.Coords, EltTy.bits .f32 = 32 ∨ (Rect.block (s := S8x256x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x64x512.size a ≤ S8x256x64x512.size a
  hwx0_6 : ∀ i : grid0.Coords, EltTy.bits .f32 = 32 ∨ (Rect.block (s := S8x256x64x512) S1x32x64x512.size (cc0_transform_6 i) (hinb0_6 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x32x64x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x256x512 : Shape := ⟨3, ![8, 256, 512]⟩
abbrev S8x64x512 : Shape := ⟨3, ![8, 64, 512]⟩
abbrev S512x512 : Shape := ⟨2, ![512, 512]⟩
abbrev S512 : Shape := ⟨1, ![512]⟩
abbrev S8x256x1x512 : Shape := ⟨4, ![8, 256, 1, 512]⟩
abbrev S8x1x64x512 : Shape := ⟨4, ![8, 1, 64, 512]⟩
abbrev S8x256x64x512 : Shape := ⟨4, ![8, 256, 64, 512]⟩
abbrev S1x1x1x512 : Shape := ⟨4, ![1, 1, 1, 512]⟩

abbrev nBuf : Space → Nat
  | .hbm => 20
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S8x256x1x512, .f32⟩
  | .hbm, ⟨7, _⟩ => ⟨S8x1x64x512, .f32⟩
  | .hbm, ⟨8, _⟩ => ⟨S8x256x64x512, .f32⟩
  | .hbm, ⟨9, _⟩ => ⟨S8x256x64x512, .f32⟩
  | .hbm, ⟨10, _⟩ => ⟨S8x256x64x512, .f32⟩
  | .hbm, ⟨11, _⟩ => ⟨S8x256x64x512, .f32⟩
  | .hbm, ⟨12, _⟩ => ⟨S1x1x1x512, .f32⟩
  | .hbm, ⟨13, _⟩ => ⟨S8x256x64x512, .f32⟩
  | .hbm, ⟨14, _⟩ => ⟨S8x256x64x512, .f32⟩
  | .hbm, ⟨15, _⟩ => ⟨S8x256x64x512, .f32⟩
  | .hbm, ⟨16, _⟩ => ⟨S8x256x64x512, .f32⟩
  | .hbm, ⟨17, _⟩ => ⟨S1x1x1x512, .f32⟩
  | .hbm, ⟨18, _⟩ => ⟨S8x256x64x512, .f32⟩
  | .hbm, ⟨19, _⟩ => ⟨S8x256x64x512, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S8x256x512_S8x256x1x512_0_1_3 : S8x256x512.BroadcastsInDim S8x256x1x512 (![0, 1, 3] : Fin 3 → Fin S8x256x1x512.rank)
  bcast_S8x64x512_S8x1x64x512_0_2_3 : S8x64x512.BroadcastsInDim S8x1x64x512 (![0, 2, 3] : Fin 3 → Fin S8x1x64x512.rank)
  bcast_S8x256x1x512_S8x256x64x512_0_1_2_3 : S8x256x1x512.BroadcastsInDim S8x256x64x512 (![0, 1, 2, 3] : Fin 4 → Fin S8x256x64x512.rank)
  bcast_S8x1x64x512_S8x256x64x512_0_1_2_3 : S8x1x64x512.BroadcastsInDim S8x256x64x512 (![0, 1, 2, 3] : Fin 4 → Fin S8x256x64x512.rank)
  bcast_S512_S1x1x1x512_3 : S512.BroadcastsInDim S1x1x1x512 (![3] : Fin 1 → Fin S1x1x1x512.rank)
  bcast_S1x1x1x512_S8x256x64x512_0_1_2_3 : S1x1x1x512.BroadcastsInDim S8x256x64x512 (![0, 1, 2, 3] : Fin 4 → Fin S8x256x64x512.rank)
  dot_S8x256x64x512_S512x512_S8x256x64x512_3_1_012_0_n_n_wf : DotDims.WF S8x256x64x512 S512x512 S8x256x64x512 [3] [1] [0, 1, 2] [0] [] []

variable [Facts₀]

def dot_S8x256x64x512_S512x512_S8x256x64x512_3_1_012_0_n_n : DotDims S8x256x64x512 S512x512 S8x256x64x512 where
  lhsContracting := [3]
  rhsContracting := [1]
  lhsNonContracting := [0, 1, 2]
  rhsNonContracting := [0]
  lhsBatch := []
  rhsBatch := []
  wf := dot_S8x256x64x512_S512x512_S8x256x64x512_3_1_012_0_n_n_wf

class Facts : Prop extends Facts₀ where

variable [Facts]
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LibRowPairs.lean ====
/-
  Layout operations of a block that pairs every row of one matrix with every row of another, READ AT AN INDEX, for
  any extents and any element type:

  * a matrix [a, c] given a middle unit axis, [a, 1, c], and that repeated along the middle axis to [a, b, c];
  * a stack of one matrix [1, b, c] repeated along the first axis to [a, b, c];
  * the pairs (i, j) of an [a, b, c] array laid out as the rows i · b + j of an [n, c] matrix (n = a · b), and back.
-/
import Idealize.ShloMosaic.Lib.Pipeline.Value
import Idealize.ShloMosaic.Lib.ValueIdx

noncomputable section

namespace Idealize.ShloMosaic.RowPairs

open Idealize.ShloMosaic Idealize.ShloMosaic.ValueIdx

variable {α : Type}

/-- A matrix [a, c] given a middle unit axis reads, at (i, z, k), the matrix at (i, k). -/
theorem shapeCast_ac_a1c_apply {a c : ℕ} (x : (⟨2, ![a, c]⟩ : Shape).Idx → α)
    (h : (⟨2, ![a, c]⟩ : Shape).ShapeCasts ⟨3, ![a, 1, c]⟩) (i : Fin a) (z : Fin 1) (k : Fin c) :
    shapeCast ⟨3, ![a, 1, c]⟩ x h (ix3 i z k) = x (ix2 i k) :=
  shapeCast_apply x h _ _ (by
    have hz : z.val = 0 := by omega
    rw [Shape.rowMajor_val_three, Shape.rowMajor_val_two]
    show i.val * c + k.val = (i.val * 1 + z.val) * c + k.val
    rw [hz, Nat.mul_one, Nat.add_zero])

/-- An [a, 1, c] array repeated along its middle axis reads, at (i, j, k), the operand at (i, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A [1, b, c] array repeated along its first axis reads, at (i, j, k), the operand at (0, j, k). -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- The pairs (i, j) of an [a, b, c] array laid out as rows of an [n, c] matrix: row r = i · b + j reads the pair. -/
theorem shapeCast_pairs_rows_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- The rows of an [n, c] matrix read back as pairs: the pair (i, j) reads row r = i · b + j. -/
theorem shapeCast_rows_pairs_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Idealize.ShloMosaic.RowPairs

end
-- ==== Proof.JointSpec.lean ====
/-
  The joint network's output as ONE function of its six argument arrays, index by index, on the extended reals.

  For a batch entry b, an encoder frame t, a prediction step u and an output unit v:

    hiddenAt b t u h = tanh ( ∑ d, (enc (b, t, d) + pred (b, u, d)) · w1 (h, d)  +  b1 h )
    logits (b, t, u, v) = ∑ h, hiddenAt b t u h · w2 (v, h)  +  b2 v

  Both weight matrices are stored output-unit first (a row per output unit), so the two layers contract the
  feature axis against the SECOND coordinate of the weight.
-/
import Idealize.ShloMosaic.PureOps.Ideal
import Idealize.ShloMosaic.Lib.ValueIdx

noncomputable section

open scoped BigOperators

namespace Cert.JointNet

open Idealize.ShloMosaic Idealize.ShloMosaic.ValueIdx

/-- The hidden layer's unit h for the pair (frame t, step u) of batch entry b: tanh of the first affine layer applied
    to the sum of the encoder's frame and the predictor's step. -/
def hiddenAt (enc : FVec Ideal ⟨3, ![8, 256, 512]⟩ .f32) (pred : FVec Ideal ⟨3, ![8, 64, 512]⟩ .f32)
    (w1 : FVec Ideal ⟨2, ![512, 512]⟩ .f32) (b1 : FVec Ideal ⟨1, ![512]⟩ .f32)
    (b : Fin 8) (t : Fin 256) (u : Fin 64) (h : Fin 512) : EReal :=
  Ideal.tanh ((∑ d : Fin 512, (enc (ix3 b t d) + pred (ix3 b u d)) * w1 (ix2 h d)) + b1 (ix1 h))

/-- The output array: the second affine layer applied to the hidden layer, at (b, t, u, v). -/
def logits (enc : FVec Ideal ⟨3, ![8, 256, 512]⟩ .f32) (pred : FVec Ideal ⟨3, ![8, 64, 512]⟩ .f32)
    (w1 : FVec Ideal ⟨2, ![512, 512]⟩ .f32) (b1 : FVec Ideal ⟨1, ![512]⟩ .f32)
    (w2 : FVec Ideal ⟨2, ![512, 512]⟩ .f32) (b2 : FVec Ideal ⟨1, ![512]⟩ .f32) :
    FVec Ideal ⟨4, ![8, 256, 64, 512]⟩ .f32 := fun i =>
  (∑ h : Fin 512, hiddenAt enc pred w1 b1 (i 0) (i 1) (i 2) h * w2 (ix2 (i 3) h)) + b2 (ix1 (i 3))

/-- The output at an index written by its coordinates. -/
theorem logits_apply (enc : FVec Ideal ⟨3, ![8, 256, 512]⟩ .f32) (pred : FVec Ideal ⟨3, ![8, 64, 512]⟩ .f32)
    (w1 : FVec Ideal ⟨2, ![512, 512]⟩ .f32) (b1 : FVec Ideal ⟨1, ![512]⟩ .f32)
    (w2 : FVec Ideal ⟨2, ![512, 512]⟩ .f32) (b2 : FVec Ideal ⟨1, ![512]⟩ .f32)
    (b : Fin 8) (t : Fin 256) (u : Fin 64) (v : Fin 512) :
    logits enc pred w1 b1 w2 b2 (ix4 b t u v)
      = (∑ h : Fin 512, hiddenAt enc pred w1 b1 b t u h * w2 (ix2 v h)) + b2 (ix1 v) := rfl

end Cert.JointNet

end
-- ==== Proof.BlockValue.lean ====
/-
  What the kernel body computes for ONE block, read at an index, on the extended reals.

  The body gets a block of 32 encoder frames x0 : [1, 32, 512], the batch entry's 64 prediction steps x2 : [1, 64, 512],
  the two weight matrices as the launch lays them out (feature axis FIRST: [512 in, 512 out]) and the two biases.
  It pairs every frame t with every step u (their sum, laid out as row t · 64 + u of a [2048, 512] matrix), applies
  the first affine layer and tanh, then the second affine layer, and lays the rows back out as pairs. Narrowing an
  operand to a shorter float format changes nothing on the extended reals, and a matrix product into the zero
  accumulator is the plain sum over the contracted axis. So at (0, t, u, v) the block holds

    ∑ h, tanh ( ∑ d, (x0 (0, t, d) + x2 (0, u, d)) · x11 (d, h) + x15 h ) · x21 (h, v)  +  x25 v .
-/
import proofs.«107559_j77541339562203_1_alg».proof.Proof.Gen.KernelIdeal.Skeleton
import proofs.«107559_j77541339562203_1_alg».proof.Proof.LibPlainMatmul
import proofs.«107559_j77541339562203_1_alg».proof.Proof.LibRowPairs
import proofs.«107559_j77541339562203_1_alg».proof.Proof.JointSpec
import Idealize.ShloMosaic.Lib.ValueLayout
import Idealize.ShloMosaic.Lib.ValueIdx
import Idealize.ShloMosaic.Lib.Pipeline.Value

noncomputable section

open scoped BigOperators

namespace Cert.KernelIdeal.BlockValue

open Cert.KernelIdeal Cert.KernelIdeal.Gen Idealize.ShloMosaic Idealize.ShloMosaic.ValueIdx

/-- The row of the [2048, 512] matrix that holds the pair (frame t, step u). -/
def row (t : Fin 32) (u : Fin 64) : Fin 2048 := ⟨t.val * 64 + u.val, by have := t.isLt; have := u.isLt; omega⟩

/-- Row t · 64 + u of the paired matrix is frame t plus step u, feature by feature. -/
theorem pairRows_apply (x0 : Vec Ideal S1x32x512 .f32) (x2 : Vec Ideal S1x64x512 .f32)
    (h1 : S1x32x512.ShapeCasts S32x512) (h2 : S1x64x512.ShapeCasts S64x512) (h3 : S32x512.ShapeCasts S32x1x512)
    (h4 : S64x512.ShapeCasts S1x64x512) (h5 : S32x1x512.Broadcasts S32x64x512) (h6 : S1x64x512.Broadcasts S32x64x512)
    (h7 : S32x64x512.ShapeCasts S2048x512) (t : Fin 32) (u : Fin 64) (d : Fin 512) :
    shapeCast S2048x512
        (addf (F := Ideal) (φ := .f32) (broadcastTo S32x64x512 (shapeCast S32x1x512 (shapeCast S32x512 x0 h1) h3) h5)
          (broadcastTo S32x64x512 (shapeCast S1x64x512 (shapeCast S64x512 x2 h2) h4) h6)) h7 (ix2 (row t u) d)
      = x0 (ix3 (0 : Fin 1) t d) + x2 (ix3 (0 : Fin 1) u d) := by
  rw [RowPairs.shapeCast_pairs_rows_apply _ h7 t u d (row t u) rfl, addf_apply,
    RowPairs.broadcastTo_a1c_abc_apply, RowPairs.shapeCast_ac_a1c_apply, shapeCast_1ab_ab_apply,
    RowPairs.broadcastTo_1bc_abc_apply, shapeCast_ab_1ab_apply, shapeCast_1ab_ab_apply]

/-- One affine layer of the body at (r, q): row r of the input against column q of the weight, plus the bias's entry q. -/
theorem layer_apply (x : FVec Ideal S2048x512 .f32) (w : FVec Ideal S512x512 .f32) (b : FVec Ideal S512 .f32)
    (hx : FTy.bits .bf16 < FTy.bits .f32) (hw : S512x512.ShapeCasts S512x512) (hb : S512.ShapeCasts S1x512)
    (hbb : S1x512.Broadcasts S2048x512) (r : Fin 2048) (q : Fin 512) :
    addf (F := Ideal) (φ := .f32)
        (matmul dot_S2048x512_S512x512_S2048x512_1_0_0_1_n_n none (truncf .bf16 x hx : FVec Ideal S2048x512 .bf16)
          (truncf .bf16 (shapeCast S512x512 w hw : FVec Ideal S512x512 .f32) hx : FVec Ideal S512x512 .bf16)
          (constant S2048x512 .f32 0x00000000#32))
        (broadcastTo S2048x512 (shapeCast S1x512 b hb) hbb) (ix2 r q)
      = (∑ k : Fin 512, x (ix2 r k) * w (ix2 k q)) + b (ix1 q) := by
  rw [addf_apply, show dot_S2048x512_S512x512_S2048x512_1_0_0_1_n_n = DotDims.plain 2048 512 512 from rfl,
    PlainMatmul.plainMatmul_apply, broadcastTo_1b_ab_apply, shapeCast_a_1a_apply, shapeCast_self]
  rfl

/-- The body's stored value at (z, t, u, v). -/
theorem pay_apply (x0 : Vec Ideal S1x32x512 .f32) (x2 : Vec Ideal S1x64x512 .f32) (x11 : Vec Ideal S512x512 .f32)
    (x15 : Vec Ideal S512 .f32) (x21 : Vec Ideal S512x512 .f32) (x25 : Vec Ideal S512 .f32)
    (z : Fin 1) (t : Fin 32) (u : Fin 64) (v : Fin 512) :
    k0_pay1 (F := Ideal) x0 x2 x11 x15 x21 x25 (ix4 z t u v)
      = (∑ h : Fin 512, Ideal.tanh ((∑ d : Fin 512, (x0 (ix3 (0 : Fin 1) t d) + x2 (ix3 (0 : Fin 1) u d)) * x11 (ix2 d h))
            + x15 (ix1 h)) * x21 (ix2 h v)) + x25 (ix1 v) := by
  unfold k0_pay1
  rw [shapeCast_abc_1abc_apply, RowPairs.shapeCast_rows_pairs_apply _ _ t u v (row t u) rfl, layer_apply]
  refine congrArg (· + x25 (ix1 v)) (Finset.sum_congr rfl fun h _ => ?_)
  refine congrArg (· * x21 (ix2 h v)) ?_
  show Ideal.tanh _ = _
  refine congrArg Ideal.tanh ?_
  rw [layer_apply]
  refine congrArg (· + x15 (ix1 h)) (Finset.sum_congr rfl fun d _ => ?_)
  rw [pairRows_apply]

/-- Frame p of the block ti of 32 frames is frame ti · 32 + p of the encoder's 256. -/
def frame (ti : Fin 8) (p : Fin 32) : Fin 256 := ⟨ti.val * 32 + p.val, by have := ti.isLt; have := p.isLt; omega⟩

/-- THE BLOCK IS A BLOCK OF THE OUTPUT FUNCTION. When the body's six loads are read off whole arrays — x0 the frames
    ti · 32 … ti · 32 + 31 of batch entry bi, x2 that entry's steps, x11 and x21 the two weights TRANSPOSED (feature axis
    first), x15 and x25 the biases — what it stores at (z, p, u, v) is the joint network's output at
    (bi, ti · 32 + p, u, v): the transposes cancel the layers' contraction against the weights' second coordinate. -/
theorem block_value (A0 : FVec Ideal ⟨3, ![8, 256, 512]⟩ .f32) (A1 : FVec Ideal ⟨3, ![8, 64, 512]⟩ .f32)
    (W1 : FVec Ideal ⟨2, ![512, 512]⟩ .f32) (B1 : FVec Ideal ⟨1, ![512]⟩ .f32)
    (W2 : FVec Ideal ⟨2, ![512, 512]⟩ .f32) (B2 : FVec Ideal ⟨1, ![512]⟩ .f32)
    (x0 : Vec Ideal S1x32x512 .f32) (x2 : Vec Ideal S1x64x512 .f32) (x11 : Vec Ideal S512x512 .f32)
    (x15 : Vec Ideal S512 .f32) (x21 : Vec Ideal S512x512 .f32) (x25 : Vec Ideal S512 .f32)
    (bi : Fin 8) (ti : Fin 8)
    (e0 : ∀ (p : Fin 32) (d : Fin 512), x0 (ix3 (0 : Fin 1) p d) = A0 (ix3 bi (frame ti p) d))
    (e1 : ∀ (u : Fin 64) (d : Fin 512), x2 (ix3 (0 : Fin 1) u d) = A1 (ix3 bi u d))
    (e2 : ∀ d h : Fin 512, x11 (ix2 d h) = W1 (ix2 h d))
    (e3 : ∀ h : Fin 512, x15 (ix1 h) = B1 (ix1 h))
    (e4 : ∀ h v : Fin 512, x21 (ix2 h v) = W2 (ix2 v h))
    (e5 : ∀ v : Fin 512, x25 (ix1 v) = B2 (ix1 v))
    (z : Fin 1) (p : Fin 32) (u : Fin 64) (v : Fin 512) :
    k0_pay1 (F := Ideal) x0 x2 x11 x15 x21 x25 (ix4 z p u v)
      = Cert.JointNet.logits A0 A1 W1 B1 W2 B2 (ix4 bi (frame ti p) u v) := by
  rw [pay_apply, Cert.JointNet.logits_apply]
  unfold Cert.JointNet.hiddenAt
  simp only [e0, e1, e2, e3, e4, e5]

end Cert.KernelIdeal.BlockValue

end
-- ==== Proof.KernelValue.lean ====
/-
  From blocks to the array: after the kernel's run its output array is the joint network's output function of the
  argument arrays as launched.

  The grid has 8 × 8 points. Point (bi, ti) is handed frames ti · 32 … ti · 32 + 31 of batch entry bi, that entry's
  64 prediction steps, and — at every point — the two weight matrices as the launch TRANSPOSED them and the two
  biases; it writes back the [1, 32, 64, 512] block at (bi, ti · 32, 0, 0). Each block it writes is that block of the
  output function (`block_value`), and the 64 blocks tile the [8, 256, 64, 512] array: the block that holds
  (b, t, u, v) is the one of point (b, t / 32).
-/
import proofs.«107559_j77541339562203_1_alg».proof.Proof.Gen.KernelIdeal.Value
import proofs.«107559_j77541339562203_1_alg».proof.Proof.BlockValue
import proofs.«107559_j77541339562203_1_alg».proof.Proof.JointSpec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.ValueIdx Cert.KernelIdeal.BlockValue
open Idealize.ShloMosaic.Pipeline (Dat)

variable (m : (ℓ : Loc nD τ sig) → Buf (Elt Ideal) ℓ) (ρ : Dev nD → PrngReg)

/-- The joint network's output function of core c's argument arrays as launched. -/
abbrev out (c : Dev nD) : S8x256x64x512.Idx → Elt Ideal .f32 :=
  Cert.JointNet.logits (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The arrays the region finds -/

/-- The first weight as the region finds it: the launch's transpose of the argument. -/
theorem V_w1 (c : Dev nD) : (V m c main_v0 : S512x512.Idx → Elt Ideal .f32)
    = transpose S512x512 [1, 0] (m ((c : Thread nD τ).loc main_arg2)) transposes_S512x512_S512x512_1_0 := by
  dsimp only [Gen.V, Gen.hostOps0]; after_results

/-- The second weight as the region finds it: the launch's transpose of the argument. -/
theorem V_w2 (c : Dev nD) : (V m c main_v1 : S512x512.Idx → Elt Ideal .f32)
    = transpose S512x512 [1, 0] (m ((c : Thread nD τ).loc main_arg4)) transposes_S512x512_S512x512_1_0 := by
  dsimp only [Gen.V, Gen.hostOps0]; after_results

/-! ## The index maps over the grid -/

/-- The printed index maps, decided over the 64 points: the frames' window moves with the output's on the batch and
    frame axes, the steps' window on the batch axis, the weights' and biases' windows stay, and the output's block
    coordinates are below 8. -/
theorem idx_facts : ∀ t : Fin cfg0.N,
    win0_0.index t (0 : Fin 3) = win0_6.index t (0 : Fin 4) ∧ win0_0.index t (1 : Fin 3) = win0_6.index t (1 : Fin 4)
    ∧ win0_0.index t (2 : Fin 3) = 0
    ∧ win0_1.index t (0 : Fin 3) = win0_6.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (2 : Fin 4) = 0 ∧ win0_6.index t (3 : Fin 4) = 0
    ∧ win0_6.index t (0 : Fin 4) < 8 ∧ win0_6.index t (1 : Fin 4) < 8 :=
  (by decide +kernel : ∀ t : Fin grid0.N, _)

/-- Every (batch entry, block of frames) is some point's. -/
theorem idx_onto : ∀ (q0 : Fin 8) (q1 : Fin 8), ∃ t : Fin cfg0.N, win0_6.index t = ![q0.val, q1.val, 0, 0] :=
  (by decide +kernel : ∀ (q0 : Fin 8) (q1 : Fin 8), ∃ t : Fin grid0.N, win0_6.index t = ![q0.val, q1.val, 0, 0])

/-- Point t's batch entry. -/
def batchOf (t : Fin cfg0.N) : Fin 8 := ⟨win0_6.index t (0 : Fin 4), (idx_facts t).2.2.2.2.2.2.2.2.2.2.2.2.2.2.1⟩
/-- Point t's block of frames. -/
def framesOf (t : Fin cfg0.N) : Fin 8 := ⟨win0_6.index t (1 : Fin 4), (idx_facts t).2.2.2.2.2.2.2.2.2.2.2.2.2.2.2⟩

/-! ## What point t writes back -/

/-- WHAT POINT t WRITES BACK is block t of the output function. -/
theorem flushed_eq (c : Dev nD) (t : Fin cfg0.N) :
    (dats m 0 c).flushed 6 t = ((cfg0.win 6).blk t).view.read (Elt Ideal) (out m c) := by
  rw [Value.flushed6]
  unfold out0_6
  rw [View.canon_unit_zero hz4]
  simp only [View.ld_unit_zero (S := S1x32x512) hz3, View.ld_unit_zero (S := S1x64x512) hz3,
    View.ld_unit_zero (S := S512x512) hz2, View.ld_unit_zero (S := S512) hz1]
  obtain ⟨f00, f01, f02, f10, f11, f12, f20, f21, f30, f40, f41, f50, f62, f63, f60, f61⟩ := idx_facts t
  funext j
  obtain ⟨z, p, u, v, rfl⟩ : ∃ (z : Fin 1) (p : Fin 32) (u : Fin 64) (v : Fin 512), j = ix4 z p u v :=
    ⟨j 0, j 1, j 2, j 3, eq_ix4 j⟩
  have hemb : ((cfg0.win 6).blk t).view.emb (ix4 z p u v) = ix4 (batchOf t) (frame (framesOf t) p) u v := by
    funext a; apply Fin.ext
    match a with
    | ⟨0, _⟩ => show win0_6.index t (0 : Fin 4) * 1 + 1 * z.val = win0_6.index t (0 : Fin 4); have := z.isLt; omega
    | ⟨1, _⟩ => show win0_6.index t (1 : Fin 4) * 32 + 1 * p.val = win0_6.index t (1 : Fin 4) * 32 + p.val; omega
    | ⟨2, _⟩ => show win0_6.index t (2 : Fin 4) * 64 + 1 * u.val = u.val; omega
    | ⟨3, _⟩ => show win0_6.index t (3 : Fin 4) * 512 + 1 * v.val = v.val; omega
  show k0_pay1 (F := Ideal) (iblk m c 0 t) (iblk m c 1 t) (iblk m c 2 t) (iblk m c 3 t) (iblk m c 4 t) (iblk m c 5 t) (ix4 z p u v)
    = out m c (((cfg0.win 6).blk t).view.emb (ix4 z p u v))
  rw [hemb]
  refine block_value _ _ _ _ _ _ (iblk m c 0 t) (iblk m c 1 t) (iblk m c 2 t) (iblk m c 3 t) (iblk m c 4 t) (iblk m c 5 t)
    (batchOf t) (framesOf t) (fun p d => ?_) (fun u d => ?_) (fun d h => ?_) (fun h => ?_) (fun h v => ?_) (fun v => ?_) z p u v
  · show V m c main_arg0 (((cfg0.win 0).blk t).view.emb (ix3 (0 : Fin 1) p d)) = _
    rw [V_main_arg0]
    refine congrArg _ (funext fun a => Fin.ext ?_)
    match a with
    | ⟨0, _⟩ => show win0_0.index t (0 : Fin 3) * 1 + 1 * 0 = win0_6.index t (0 : Fin 4); omega
    | ⟨1, _⟩ => show win0_0.index t (1 : Fin 3) * 32 + 1 * p.val = win0_6.index t (1 : Fin 4) * 32 + p.val; omega
    | ⟨2, _⟩ => show win0_0.index t (2 : Fin 3) * 512 + 1 * d.val = d.val; omega
  · show V m c main_arg1 (((cfg0.win 1).blk t).view.emb (ix3 (0 : Fin 1) u d)) = _
    rw [V_main_arg1]
    refine congrArg _ (funext fun a => Fin.ext ?_)
    match a with
    | ⟨0, _⟩ => show win0_1.index t (0 : Fin 3) * 1 + 1 * 0 = win0_6.index t (0 : Fin 4); omega
    | ⟨1, _⟩ => show win0_1.index t (1 : Fin 3) * 64 + 1 * u.val = u.val; omega
    | ⟨2, _⟩ => show win0_1.index t (2 : Fin 3) * 512 + 1 * d.val = d.val; omega
  · show V m c main_v0 (((cfg0.win 2).blk t).view.emb (ix2 d h)) = _
    have he : ((cfg0.win 2).blk t).view.emb (ix2 d h) = ix2 d h := by
      funext a; apply Fin.ext
      match a with
      | ⟨0, _⟩ => show win0_2.index t (0 : Fin 2) * 512 + 1 * d.val = d.val; omega
      | ⟨1, _⟩ => show win0_2.index t (1 : Fin 2) * 512 + 1 * h.val = h.val; omega
    rw [he, V_w1, transpose_ix2_apply]
  · show V m c main_arg3 (((cfg0.win 3).blk t).view.emb (ix1 h)) = _
    rw [V_main_arg3]
    refine congrArg _ (funext fun a => Fin.ext ?_)
    match a with
    | ⟨0, _⟩ => show win0_3.index t (0 : Fin 1) * 512 + 1 * h.val = h.val; omega
  · show V m c main_v1 (((cfg0.win 4).blk t).view.emb (ix2 h v)) = _
    have he : ((cfg0.win 4).blk t).view.emb (ix2 h v) = ix2 h v := by
      funext a; apply Fin.ext
      match a with
      | ⟨0, _⟩ => show win0_4.index t (0 : Fin 2) * 512 + 1 * h.val = h.val; omega
      | ⟨1, _⟩ => show win0_4.index t (1 : Fin 2) * 512 + 1 * v.val = v.val; omega
    rw [he, V_w2, transpose_ix2_apply]
  · show V m c main_arg5 (((cfg0.win 5).blk t).view.emb (ix1 v)) = _
    rw [V_main_arg5]
    refine congrArg _ (funext fun a => Fin.ext ?_)
    match a with
    | ⟨0, _⟩ => show win0_5.index t (0 : Fin 1) * 512 + 1 * v.val = v.val; omega

/-! ## The blocks tile the array -/

/-- An index of the array is in point t's block iff each coordinate is in the block's range on its axis. -/
theorem mem_blk (t : Fin cfg0.N) (i : S8x256x64x512.Idx) :
    i ∈ ((cfg0.win 6).blk t).view.set ↔ ∀ a : Fin 4, win0_6.index t a * S1x32x64x512.size a ≤ (i a).val
      ∧ (i a).val < win0_6.index t a * S1x32x64x512.size a + S1x32x64x512.size a := by
  show i ∈ ((View.whole main_v2).slice (win0_6.rect t)).set ↔ _
  rw [View.set_slice_whole, Rect.mem_set_unit]
  exact Iff.rfl

/-- Every index of the output array is in the block of the point of its batch entry and its frame's block of 32. -/
theorem cover (i : S8x256x64x512.Idx) :
    ∃ t : Fin cfg0.N, (cfg0.win 6).flush t = true ∧ i ∈ ((cfg0.win 6).blk t).view.set := by
  have hi0 : (i 0).val < 8 := (i 0).isLt
  have hi1 : (i 1).val < 256 := (i 1).isLt
  have hi2 : (i 2).val < 64 := (i 2).isLt
  have hi3 : (i 3).val < 512 := (i 3).isLt
  obtain ⟨t, ht⟩ := idx_onto ⟨(i 0).val, hi0⟩ ⟨(i 1).val / 32, by omega⟩
  have q0 : win0_6.index t (0 : Fin 4) = (i 0).val := congrFun ht 0
  have q1 : win0_6.index t (1 : Fin 4) = (i 1).val / 32 := congrFun ht 1
  have q2 : win0_6.index t (2 : Fin 4) = 0 := congrFun ht 2
  have q3 : win0_6.index t (3 : Fin 4) = 0 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 32 ≤ (i 1).val ∧ (i 1).val < win0_6.index t (1 : Fin 4) * 32 + 32; omega
  | ⟨2, _⟩ => show win0_6.index t (2 : Fin 4) * 64 ≤ (i 2).val ∧ (i 2).val < win0_6.index t (2 : Fin 4) * 64 + 64; omega
  | ⟨3, _⟩ => show win0_6.index t (3 : Fin 4) * 512 ≤ (i 3).val ∧ (i 3).val < win0_6.index t (3 : Fin 4) * 512 + 512; omega

/-- THE ARRAY after the run is the output function of the arguments as launched. -/
theorem final (c : Dev nD) : (dats m 0 c).arrAt 6 cfg0.N = out m c :=
  (dats m 0 c).arrAt_eq_of_cover 6 (out m c) (fun t _ => flushed_eq m c t) cover

/-! ## The run, read -/

/-- Every weakly fair execution of the kernel's program terminates with the output array at the joint network's
    output function of the arguments as launched, the arguments unchanged. -/
theorem run : θ_run defs (onTc (τ := τ) (main (F := Ideal))) ⟨m, fun _ => 0, ρ⟩ fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KernelValue

end
-- ==== Proof.RefValue.lean ====
/-
  The reference's result, read one operation at a time, is the joint network's output function.

  The reference broadcasts the encoder's frames over the prediction steps and the steps over the frames, adds them,
  contracts the feature axis against the second coordinate of each weight matrix (a row per output unit), adds the
  biases broadcast over the leading axes and applies tanh between the two layers: at (b, t, u, v) exactly the sum that
  defines `logits`.
-/
import proofs.«107559_j77541339562203_1_alg».proof.Proof.Gen.ReferenceIdeal.Read
import proofs.«107559_j77541339562203_1_alg».proof.Proof.JointSpec

noncomputable section

open scoped BigOperators

namespace Cert.ReferenceIdeal.RefValue

open Cert.ReferenceIdeal Cert.ReferenceIdeal.Read Idealize.ShloMosaic Idealize.ShloMosaic.ValueIdx Cert.JointNet

variable (x0 : (⟨S8x256x512, .f32⟩ : BufTy).Contents (Elt Ideal)) (x1 : (⟨S8x64x512, .f32⟩ : BufTy).Contents (Elt Ideal))
  (x2 : (⟨S512x512, .f32⟩ : BufTy).Contents (Elt Ideal)) (x3 : (⟨S512, .f32⟩ : BufTy).Contents (Elt Ideal))
  (x4 : (⟨S512x512, .f32⟩ : BufTy).Contents (Elt Ideal)) (x5 : (⟨S512, .f32⟩ : BufTy).Contents (Elt Ideal))

/-- The broadcast sum at (b, t, u, d): frame t plus step u of batch entry b, at feature d. -/
theorem joint_apply (b : Fin 8) (t : Fin 256) (u : Fin 64) (d : Fin 512) :
    val_main_v4 (F := Ideal) x0 x1 (ix4 b t u d) = x0 (ix3 b t d) + x1 (ix3 b u d) := by
  have e2 : idx_main_v0 (idx_main_v2 (ix4 b t u d)) = ix3 b t d :=
    funext fun a => Fin.ext (by match a with | ⟨0, _⟩ => rfl | ⟨1, _⟩ => rfl | ⟨2, _⟩ => rfl)
  have e3 : idx_main_v1 (idx_main_v3 (ix4 b t u d)) = ix3 b u d :=
    funext fun a => Fin.ext (by match a with | ⟨0, _⟩ => rfl | ⟨1, _⟩ => rfl | ⟨2, _⟩ => rfl)
  rw [val_main_v4_apply, val_main_v2_apply, val_main_v0_apply, val_main_v3_apply, val_main_v1_apply, e2, e3]
  rfl

/-- The reference's hidden layer at (b, t, u, h). -/
theorem hidden_apply (b : Fin 8) (t : Fin 256) (u : Fin 64) (h : Fin 512) :
    val_main_v9 (F := Ideal) x0 x1 x2 x3 (ix4 b t u h) = hiddenAt x0 x1 x2 x3 b t u h := by
  have el : ∀ d : Fin 512, lidx_main_v5 (ix4 b t u h) d = ix4 b t u d := fun d =>
    funext fun a => Fin.ext (by match a with | ⟨0, _⟩ => rfl | ⟨1, _⟩ => rfl | ⟨2, _⟩ => rfl | ⟨3, _⟩ => rfl)
  have er : ∀ d : Fin 512, ridx_main_v5 (ix4 b t u h) d = ix2 h d := fun d =>
    funext fun a => Fin.ext (by match a with | ⟨0, _⟩ => rfl | ⟨1, _⟩ => rfl)
  have eb : idx_main_v6 (idx_main_v7 (ix4 b t u h)) = ix1 h :=
    funext fun a => Fin.ext (by match a with | ⟨0, _⟩ => rfl)
  rw [val_main_v9_apply, val_main_v8_apply, val_main_v5_apply, val_main_v7_apply, val_main_v6_apply, eb]
  unfold hiddenAt
  show Ideal.tanh (_ + _) = _
  refine congrArg Ideal.tanh (congrArg (· + x3 (ix1 h)) (Finset.sum_congr rfl fun d _ => ?_))
  rw [el, er, joint_apply]

/-- The reference's last stage is the joint network's output function. -/
theorem result_eq : val_main_v13 (F := Ideal) x0 x1 x2 x3 x4 x5 = logits x0 x1 x2 x3 x4 x5 := by
  funext i
  obtain ⟨b, t, u, v, rfl⟩ : ∃ (b : Fin 8) (t : Fin 256) (u : Fin 64) (v : Fin 512), i = ix4 b t u v :=
    ⟨i 0, i 1, i 2, i 3, eq_ix4 i⟩
  have el : ∀ h : Fin 512, lidx_main_v10 (ix4 b t u v) h = ix4 b t u h := fun h =>
    funext fun a => Fin.ext (by match a with | ⟨0, _⟩ => rfl | ⟨1, _⟩ => rfl | ⟨2, _⟩ => rfl | ⟨3, _⟩ => rfl)
  have er : ∀ h : Fin 512, ridx_main_v10 (ix4 b t u v) h = ix2 v h := fun h =>
    funext fun a => Fin.ext (by match a with | ⟨0, _⟩ => rfl | ⟨1, _⟩ => rfl)
  have eb : idx_main_v11 (idx_main_v12 (ix4 b t u v)) = ix1 v :=
    funext fun a => Fin.ext (by match a with | ⟨0, _⟩ => rfl)
  rw [logits_apply, val_main_v13_apply, val_main_v10_apply, val_main_v12_apply, val_main_v11_apply, eb]
  show _ + _ = _
  refine congrArg (· + x5 (ix1 v)) (Finset.sum_congr rfl fun h _ => ?_)
  rw [el, er, hidden_apply]

end Cert.ReferenceIdeal.RefValue

end
-- ==== Proof.lean ====
/-
  The joint network: a kernel that tiles the encoder's frames against a plain array program.

  Both programs compute, for batch entry b, encoder frame t, prediction step u and output unit v,

    logits (b, t, u, v) = ∑ h, tanh ( ∑ d, (enc (b, t, d) + pred (b, u, d)) · w1 (h, d) + b1 h ) · w2 (v, h) + b2 v

  on the extended reals (Proof/JointSpec.lean). The array program broadcasts, adds, and contracts the feature axis
  against the second coordinate of each weight (Proof/RefValue.lean). The kernel's launch transposes the two weights,
  and each of its 8 × 8 grid points pairs a block of 32 frames with the batch entry's 64 steps as the 2048 rows of a
  matrix, runs the two layers as matrix products into zero accumulators over operands narrowed to a shorter format —
  the identity on the extended reals — and writes the rows back as a [1, 32, 64, 512] block (Proof/BlockValue.lean);
  the 64 blocks tile the output (Proof/KernelValue.lean). The two sums are term for term the same, so no law of
  arithmetic beyond reading both sides at an index is used, and the inputs' finiteness is never opened.

  The three frames are the generated ones (the reference's is its generated run with the result dropped); the
  idealization's ledger is empty, so there is nothing to preserve.
-/
import proofs.«107559_j77541339562203_1_alg».proof.Defs
import proofs.«107559_j77541339562203_1_alg».proof.Proof.Gen.Kernel
import proofs.«107559_j77541339562203_1_alg».proof.Proof.Gen.Kernel.Skeleton
import proofs.«107559_j77541339562203_1_alg».proof.Proof.Gen.Kernel.Launch
import proofs.«107559_j77541339562203_1_alg».proof.Proof.Gen.Kernel.Points
import proofs.«107559_j77541339562203_1_alg».proof.Proof.Gen.Kernel.Frame
import proofs.«107559_j77541339562203_1_alg».proof.Proof.Gen.KernelIdeal
import proofs.«107559_j77541339562203_1_alg».proof.Proof.Gen.KernelIdeal.Skeleton
import proofs.«107559_j77541339562203_1_alg».proof.Proof.Gen.KernelIdeal.Launch
import proofs.«107559_j77541339562203_1_alg».proof.Proof.Gen.KernelIdeal.Points
import proofs.«107559_j77541339562203_1_alg».proof.Proof.Gen.KernelIdeal.Frame
import proofs.«107559_j77541339562203_1_alg».proof.Proof.Gen.ReferenceIdeal
import proofs.«107559_j77541339562203_1_alg».proof.Proof.Gen.Pre_finite_inputs
import proofs.«107559_j77541339562203_1_alg».proof.Proof.Gen.KernelIdeal.Value
import proofs.«107559_j77541339562203_1_alg».proof.Proof.Gen.ReferenceIdeal.Run
import proofs.«107559_j77541339562203_1_alg».proof.Proof.Gen.ReferenceIdeal.Read
import proofs.«107559_j77541339562203_1_alg».proof.Proof.KernelValue
import proofs.«107559_j77541339562203_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- And the array program: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the six arguments both programs end with the output array at the joint network's
    output function of those arguments: the kernel's by its blocks, the array program's operation by operation. -/
theorem algebraic : Cert.algebraic_KernelIdeal_ReferenceIdeal := by
  intro m ρ m' ρ' _ hagree
  refine ⟨fun c => Cert.KernelIdeal.KernelValue.out m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
